-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x256x256 : Shape := ⟨4, ![16, 64, 256, 256]⟩
abbrev S_ : Shape := ⟨0, ![]⟩

class Facts : Prop where
  bcast_S_S16x64x256x256 : S_.BroadcastsInDim S16x64x256x256 (![] : Fin 0 → Fin S16x64x256x256.rank)
  reducesTo_S16x64x256x256_S_d0_1_2_3 : S16x64x256x256.ReducesTo [0, 1, 2, 3] S_
  h_S_ : 0 < S_.numel

variable [Facts]

def fn {F : FTy → Type} [FloatOps F] (main_arg0 : FVec F S16x64x256x256 .f32) : IVec S_ 1 :=
  let main_v0 : FVec F S16x64x256x256 .f32 := Host.absf main_arg0
  let main_cst : FVec F S_ .f32 := constant S_ .f32 0x7F800000#32
  let main_v1 : FVec F S16x64x256x256 .f32 := broadcastInDim S16x64x256x256 ![] bcast_S_S16x64x256x256 main_cst
  let main_v2 : IVec S16x64x256x256 1 := cmpf .olt main_v0 main_v1
  let main_c : IVec S_ 1 := constantI S_ 1 1#1
  let main_v3 : IVec S_ 1 := (fun x v => Host.reduce IntOp.andi x v reducesTo_S16x64x256x256_S_d0_1_2_3 h_S_) main_v2 main_c
  main_v3
-- ==== Kernel.lean ====
abbrev S16x64x256x256 : Shape := ⟨4, ![16, 64, 256, 256]⟩
abbrev S1024x65536 : Shape := ⟨2, ![1024, 65536]⟩
abbrev S32x65536 : Shape := ⟨2, ![32, 65536]⟩
abbrev S32 : Shape := ⟨1, ![32]⟩
abbrev S32x1 : Shape := ⟨2, ![32, 1]⟩

abbrev nBuf : Space → Nat
  | .hbm => 4
  | .vmem => 4
  | .smem => 0
  | _ => 0

abbrev bufTy : (tb : Table) → Fin (tcTables nBuf tb) → BufTy
  | .hbm, ⟨0, _⟩ => ⟨S16x64x256x256, .f32⟩
  | .hbm, ⟨1, _⟩ => ⟨S1024x65536, .f32⟩
  | .hbm, ⟨2, _⟩ => ⟨S1024x65536, .f32⟩
  | .hbm, ⟨3, _⟩ => ⟨S16x64x256x256, .f32⟩
  | .local _ .vmem, ⟨0, _⟩ => ⟨S32x65536, .f32⟩
  | .local _ .vmem, ⟨1, _⟩ => ⟨S32x65536, .f32⟩
  | .local _ .vmem, ⟨2, _⟩ => ⟨S32x65536, .f32⟩
  | .local _ .vmem, ⟨3, _⟩ => ⟨S32x65536, .f32⟩
  | _, _ => ⟨S16x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x65536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S16x64x256x256_S1024x65536 : S16x64x256x256.ShapeCasts S1024x65536
  inb_S32x65536_S32x65536_0_0 : ∀ a, (![0, 0] : Fin 2 → Nat) a + S32x65536.size a ≤ S32x65536.size a
  h_S32x65536 : 0 < S32x65536.numel
  shapeCasts_S32x65536_S32x65536 : S32x65536.ShapeCasts S32x65536
  reduces_S32x65536_S32 : S32x65536.Reduces [1] S32
  shapeCasts_S32_S32x1 : S32.ShapeCasts S32x1
  broadcasts_S32x1_S32x65536 : S32x1.Broadcasts S32x65536
  shapeCasts_S1024x65536_S16x64x256x256 : S1024x65536.ShapeCasts S16x64x256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x65536.size a ≤ S1024x65536.size a
  hwx0_0 : ∀ i : grid0.Coords, EltTy.bits .f32 = 32 ∨ (Rect.block (s := S1024x65536) S32x65536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x65536.size a ≤ S1024x65536.size a
  hwx0_1 : ∀ i : grid0.Coords, EltTy.bits .f32 = 32 ∨ (Rect.block (s := S1024x65536) S32x65536.size (cc0_transform_1 i) (hinb0_1 i)).WholeWords (EltTy.packing .f32)

variable [Facts₀]

abbrev win0_0 : Pipeline.Window sig grid0 :=
  Pipeline.Window.ofSpec (Memref.whole main_v0) S32x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x65536.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x64x256x256 : Shape := ⟨4, ![16, 64, 256, 256]⟩
abbrev S16x64x65536 : Shape := ⟨3, ![16, 64, 65536]⟩
abbrev S_ : Shape := ⟨0, ![]⟩
abbrev S16x64 : Shape := ⟨2, ![16, 64]⟩
abbrev S16x64x1 : Shape := ⟨3, ![16, 64, 1]⟩

abbrev nBuf : Space → Nat
  | .hbm => 17
  | .vmem => 0
  | .smem => 0
  | _ => 0

abbrev bufTy : (tb : Table) → Fin (tcTables nBuf tb) → BufTy
  | .hbm, ⟨0, _⟩ => ⟨S16x64x256x256, .f32⟩
  | .hbm, ⟨1, _⟩ => ⟨S16x64x65536, .f32⟩
  | .hbm, ⟨2, _⟩ => ⟨S_, .f32⟩
  | .hbm, ⟨3, _⟩ => ⟨S16x64, .f32⟩
  | .hbm, ⟨4, _⟩ => ⟨S_, .f32⟩
  | .hbm, ⟨5, _⟩ => ⟨S16x64, .f32⟩
  | .hbm, ⟨6, _⟩ => ⟨S16x64, .f32⟩
  | .hbm, ⟨7, _⟩ => ⟨S16x64x1, .f32⟩
  | .hbm, ⟨8, _⟩ => ⟨S16x64x65536, .f32⟩
  | .hbm, ⟨9, _⟩ => ⟨S16x64x65536, .f32⟩
  | .hbm, ⟨10, _⟩ => ⟨S16x64x65536, .f32⟩
  | .hbm, ⟨11, _⟩ => ⟨S_, .f32⟩
  | .hbm, ⟨12, _⟩ => ⟨S16x64, .f32⟩
  | .hbm, ⟨13, _⟩ => ⟨S16x64x1, .f32⟩
  | .hbm, ⟨14, _⟩ => ⟨S16x64x65536, .f32⟩
  | .hbm, ⟨15, _⟩ => ⟨S16x64x65536, .f32⟩
  | .hbm, ⟨16, _⟩ => ⟨S16x64x256x256, .f32⟩
  | _, _ => ⟨S16x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]

class Facts₀ : Prop where
  shapeCasts_S16x64x256x256_S16x64x65536 : S16x64x256x256.ShapeCasts S16x64x65536
  reducesTo_S16x64x65536_S16x64_d2 : S16x64x65536.ReducesTo [2] S16x64
  h_S_ : 0 < S_.numel
  bcast_S_S16x64 : S_.BroadcastsInDim S16x64 (![] : Fin 0 → Fin S16x64.rank)
  bcast_S16x64_S16x64x1_0_1 : S16x64.BroadcastsInDim S16x64x1 (![0, 1] : Fin 2 → Fin S16x64x1.rank)
  bcast_S16x64x1_S16x64x65536_0_1_2 : S16x64x1.BroadcastsInDim S16x64x65536 (![0, 1, 2] : Fin 3 → Fin S16x64x65536.rank)
  shapeCasts_S16x64x65536_S16x64x256x256 : S16x64x65536.ShapeCasts S16x64x256x256

variable [Facts₀]

class Facts : Prop extends Facts₀ where

variable [Facts]
-- ==== Proof.RowSoftmax.lean ====
/-
  The softmax of a row, on the extended reals, and the array it is taken over.

  For a row `f` of `n` extended reals and a floor `b`, the row's maximum is the fold of `max` from `b` over the entries,
  each entry's weight is `exp (f k - maximum)`, and the softmax at `k` is that weight divided by the sum of the row's weights.
  Taking the maximum once more against the floor changes nothing: the floor is below the fold that starts from it.

  The array is `[16, 64, 256, 256]`, read as 1024 rows of 65536 entries: row `ρ` is the channel `(ρ / 64, ρ % 64)` and
  its entry `k` the pixel `(k / 256, k % 256)`, which is where row-major order puts position `ρ · 65536 + k`. The result
  array holds, at every position, the softmax of the position's row at the position's entry.
-/
import Idealize.ShloMosaic.PureOps.Ideal
import Idealize.ShloMosaic.PureOps.Ideal.Laws
import Idealize.ShloMosaic.Lib.ValueIdx

noncomputable section

open scoped BigOperators

namespace Cert.RowSoftmax

open Idealize.ShloMosaic Idealize.ShloMosaic.ValueIdx

/-- The floor row maxima are taken from: the value of the f32 pattern of minus infinity. -/
abbrev floor : EReal := Ideal.ofBits .f32 0xFF800000#32

/-! ## One row -/

section Row
variable {n : Nat}

/-- A row's maximum: the fold of `max` over its entries, from the floor `b`. -/
def rowMax (b : EReal) (f : Fin n → EReal) : EReal := (Finset.univ : Finset (Fin n)).fold max b f

/-- The fold of the f32 maximum of the extended reals is the fold of `max`. -/
theorem fold_maximumf (b : EReal) (f : Fin n → EReal) :
    (Finset.univ : Finset (Fin n)).fold (FloatOps.maximumf (F := Ideal) (φ := .f32)) b f = rowMax b f := rfl

/-- The floor is below the maximum taken from it. -/
theorem floor_le_rowMax (b : EReal) (f : Fin n → EReal) : b ≤ rowMax b f :=
  (Finset.le_fold_max b).mpr (Or.inl le_rfl)

/-- So the maximum of the floor and the row's maximum is the row's maximum. -/
theorem max_floor_rowMax (b : EReal) (f : Fin n → EReal) : max b (rowMax b f) = rowMax b f :=
  max_eq_right (floor_le_rowMax b f)

/-- An entry's weight: the exponential of its distance below the row's maximum. -/
def weight (b : EReal) (f : Fin n → EReal) (k : Fin n) : EReal := Ideal.exp (f k - rowMax b f)

/-- The softmax of the row at entry `k`: its weight over the sum of the row's weights. -/
def softmax (b : EReal) (f : Fin n → EReal) (k : Fin n) : EReal := Ideal.div (weight b f k) (∑ k', weight b f k')

/-- The softmax depends on the row's entries and on the entry's position only. -/
theorem softmax_congr (b : EReal) {f g : Fin n → EReal} {k k' : Fin n} (hf : ∀ j, f j = g j) (hk : k.val = k'.val) :
    softmax b f k = softmax b g k' := by
  obtain rfl : f = g := funext hf
  obtain rfl : k = k' := Fin.ext hk
  rfl

end Row

/-! ## The array as rows -/

/-- Entry `k` of row `ρ`, as a position of the `[16, 64, 256, 256]` array. -/
def cell (ρ : Fin 1024) (k : Fin 65536) : (⟨4, ![16, 64, 256, 256]⟩ : Shape).Idx :=
  ix4 (⟨ρ.val / 64, by have := ρ.isLt; omega⟩ : Fin 16) (⟨ρ.val % 64, by omega⟩ : Fin 64)
    (⟨k.val / 256, by have := k.isLt; omega⟩ : Fin 256) (⟨k.val % 256, by omega⟩ : Fin 256)

/-- The row a position lies in … -/
def rowOf (i : (⟨4, ![16, 64, 256, 256]⟩ : Shape).Idx) : Fin 1024 :=
  ⟨(i 0).val * 64 + (i 1).val, by
    have h0 : (i 0).val < 16 := (i 0).isLt
    have h1 : (i 1).val < 64 := (i 1).isLt
    omega⟩

/-- … and its entry there. -/
def colOf (i : (⟨4, ![16, 64, 256, 256]⟩ : Shape).Idx) : Fin 65536 :=
  ⟨(i 2).val * 256 + (i 3).val, by
    have h2 : (i 2).val < 256 := (i 2).isLt
    have h3 : (i 3).val < 256 := (i 3).isLt
    omega⟩

/-- A position is the entry `colOf` of the row `rowOf`. -/
theorem cell_rowOf_colOf (i : (⟨4, ![16, 64, 256, 256]⟩ : Shape).Idx) : cell (rowOf i) (colOf i) = i := by
  have h0 : (i 0).val < 16 := (i 0).isLt
  have h1 : (i 1).val < 64 := (i 1).isLt
  have h2 : (i 2).val < 256 := (i 2).isLt
  have h3 : (i 3).val < 256 := (i 3).isLt
  funext a
  apply Fin.ext
  match a with
  | ⟨0, _⟩ => show ((i 0).val * 64 + (i 1).val) / 64 = (i 0).val; omega
  | ⟨1, _⟩ => show ((i 0).val * 64 + (i 1).val) % 64 = (i 1).val; omega
  | ⟨2, _⟩ => show ((i 2).val * 256 + (i 3).val) / 256 = (i 2).val; omega
  | ⟨3, _⟩ => show ((i 2).val * 256 + (i 3).val) % 256 = (i 3).val; omega

/-- The softmax over rows, as a `[1024, 65536]` array of the argument: at `(ρ, k)` the softmax of row `ρ` at entry `k`. -/
def rows (b : EReal) (x : (⟨4, ![16, 64, 256, 256]⟩ : Shape).Idx → EReal) : (⟨2, ![1024, 65536]⟩ : Shape).Idx → EReal :=
  fun j => softmax b (fun k => x (cell ⟨(j 0).val, (j 0).isLt⟩ k)) ⟨(j 1).val, (j 1).isLt⟩

/-- The rows' softmax at an index, its coordinates named. -/
theorem rows_at (b : EReal) (x : (⟨4, ![16, 64, 256, 256]⟩ : Shape).Idx → EReal) (j : (⟨2, ![1024, 65536]⟩ : Shape).Idx) :
    rows b x j = softmax b (fun k => x (cell ⟨(j 0).val, (j 0).isLt⟩ k)) ⟨(j 1).val, (j 1).isLt⟩ := rfl

/-- The rows' softmax at `(ρ, k)`. -/
theorem rows_apply (b : EReal) (x : (⟨4, ![16, 64, 256, 256]⟩ : Shape).Idx → EReal) (ρ : Fin 1024) (k : Fin 65536) :
    rows b x (ix2 ρ k) = softmax b (fun k' => x (cell ρ k')) k := rfl

/-- The result: at every position of the `[16, 64, 256, 256]` array, the softmax of the position's row at its entry. -/
def result (b : EReal) (x : (⟨4, ![16, 64, 256, 256]⟩ : Shape).Idx → EReal) : (⟨4, ![16, 64, 256, 256]⟩ : Shape).Idx → EReal :=
  fun i => softmax b (fun k => x (cell (rowOf i) k)) (colOf i)

/-- The result at a position. -/
theorem result_at (b : EReal) (x : (⟨4, ![16, 64, 256, 256]⟩ : Shape).Idx → EReal) (i : (⟨4, ![16, 64, 256, 256]⟩ : Shape).Idx) :
    result b x i = softmax b (fun k => x (cell (rowOf i) k)) (colOf i) := rfl

end Cert.RowSoftmax

end
-- ==== Proof.LibColumn.lean ====
/-
  A vector as a one-column matrix, read at an index. An array of `a` entries recast to `a` rows of one column holds at
  row `p` (whatever the column coordinate, which can only be 0) the operand's entry `p`: row-major order counts the same
  entries in the same order on both sides.
-/
import Idealize.ShloMosaic.Lib.Pipeline.Value
import Idealize.ShloMosaic.Lib.ValueLayout

namespace Idealize.ShloMosaic.ValueIdx

open Idealize.ShloMosaic

variable {α : Type}

/-- An `[a]` array cast to `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Idealize.ShloMosaic.ValueIdx
-- ==== Proof.LibLayout.lean ====
/-
  A keepdims column read at an index. An array with one column, broadcast along its unit axis to `b` columns,
  holds at `(p, c)` the operand's entry in row `p`: every column is a copy of the one column.
-/
import Idealize.ShloMosaic.Lib.Pipeline.Value
import Idealize.ShloMosaic.Lib.ValueLayout

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.BlockSoftmax.lean ====
/-
  What the kernel body computes from one block of 32 rows: at entry `q` of row `p` of the block, the softmax of row `p` at `q`.

  The body takes each row's maximum (a lane reduction by `max` from the floor), recasts the 32 maxima as a column and copies
  the column across the 65536 lanes, subtracts, exponentiates, sums each row's weights the same way and divides. Read at
  `(p, q)`, the copied column is the row's own maximum (its own sum), so the quotient is the row's softmax.
-/
import proofs.«114431_j74672301408351_1_alg».proof.Proof.Gen.KernelIdeal.Skeleton
import proofs.«114431_j74672301408351_1_alg».proof.Proof.RowSoftmax
import proofs.«114431_j74672301408351_1_alg».proof.Proof.LibColumn
import proofs.«114431_j74672301408351_1_alg».proof.Proof.LibLayout
import Idealize.ShloMosaic.PureOps.Ideal.Laws
import Idealize.ShloMosaic.Lib.Pipeline.Value
import Idealize.ShloMosaic.Lib.ValueIdx

noncomputable section

open scoped BigOperators

namespace Cert.KernelIdeal.Block

open Cert.KernelIdeal Cert.KernelIdeal.Gen Cert.RowSoftmax
open Idealize.ShloMosaic Idealize.ShloMosaic.ValueIdx

/-- The index a lane reduction of a `[32, 65536]` block reads for row `p` at lane `k` is `(p, k)`. -/
theorem lift_row (h : S32x65536.Reduces [1] S32) (p : Fin 32) (k : Fin 65536) :
    h.lift (ix1 p) k = ix2 p k :=
  funext fun a => Fin.ext (by match a with | ⟨0, _⟩ => rfl | ⟨1, _⟩ => rfl)

/-- A block's row maxima, as a column copied across the lanes, read at `(p, q)`: row `p`'s maximum from the floor. -/
theorem maxColumn_apply (v : FVec Ideal S32x65536 .f32) (h : S32x65536.Reduces [1] S32) (hφ : FKind.Formats .f32)
    (hacc : (0xFF800000#32 : BitVec 32) = FKind.maximumf.neutral .f32 hφ) (hs : S32.ShapeCasts S32x1)
    (hb : S32x1.Broadcasts S32x65536) (p : Fin 32) (q : Fin 65536) :
    broadcastTo S32x65536 (shapeCast S32x1 (multiReduction .maximumf [1] S32 v 0xFF800000#32 h hφ hacc) hs) hb (ix2 p q)
      = rowMax (Ideal.ofBits .f32 0xFF800000#32) (fun k => v (ix2 p k)) := by
  refine (broadcastTo_a1_ab_apply _ hb p q).trans ?_
  refine (shapeCast_a_a1_apply _ hs p 0).trans ?_
  refine (Ideal.multiReduction_maximumf_single v 0xFF800000#32 h hφ hacc (ix1 p)).trans ?_
  unfold rowMax
  refine congrArg (fun g : Fin 65536 → EReal => (Finset.univ : Finset (Fin 65536)).fold max (Ideal.ofBits .f32 0xFF800000#32) g) ?_
  funext k
  exact congrArg v (lift_row h p k)

/-- A block's row sums, as a column copied across the lanes, read at `(p, q)`: the sum of row `p`. -/
theorem sumColumn_apply (e : FVec Ideal S32x65536 .f32) (h : S32x65536.Reduces [1] S32) (hφ : FKind.Formats .f32)
    (hacc : (0x00000000#32 : BitVec 32) = FKind.add.neutral .f32 hφ) (hs : S32.ShapeCasts S32x1)
    (hb : S32x1.Broadcasts S32x65536) (p : Fin 32) (q : Fin 65536) :
    broadcastTo S32x65536 (shapeCast S32x1 (multiReduction .add [1] S32 e 0x00000000#32 h hφ hacc) hs) hb (ix2 p q)
      = ∑ k : Fin 65536, e (ix2 p k) := by
  refine (broadcastTo_a1_ab_apply _ hb p q).trans ?_
  refine (shapeCast_a_a1_apply _ hs p 0).trans ?_
  refine (Ideal.multiReduction_add_single e 0x00000000#32 h hφ hacc (ix1 p)).trans ?_
  exact Finset.sum_congr rfl fun k _ => congrArg e (lift_row h p k)

/-- The block's weights: each entry's exponential distance below its row's maximum. -/
theorem weights_apply (v : FVec Ideal S32x65536 .f32) (h : S32x65536.Reduces [1] S32) (hφ : FKind.Formats .f32)
    (hacc : (0xFF800000#32 : BitVec 32) = FKind.maximumf.neutral .f32 hφ) (hs : S32.ShapeCasts S32x1)
    (hb : S32x1.Broadcasts S32x65536) (p : Fin 32) (q : Fin 65536) :
    exp (subf v (broadcastTo S32x65536 (shapeCast S32x1 (multiReduction .maximumf [1] S32 v 0xFF800000#32 h hφ hacc) hs) hb)) (ix2 p q)
      = weight (Ideal.ofBits .f32 0xFF800000#32) (fun k => v (ix2 p k)) q :=
  congrArg (fun z => Ideal.exp (v (ix2 p q) - z)) (maxColumn_apply v h hφ hacc hs hb p q)

/-- The body's result at entry `q` of row `p` of the block it loaded: the softmax of that row at `q`. -/
theorem pay_apply (x0 : Vec Ideal S32x65536 .f32) (p : Fin 32) (q : Fin 65536) :
    k0_pay1 (F := Ideal) x0 (ix2 p q) = softmax (Ideal.ofBits .f32 0xFF800000#32) (fun k => x0 (ix2 p k)) q := by
  unfold k0_pay1
  dsimp only
  rw [shapeCast_self]
  unfold softmax
  refine (divf_apply _ _ _).trans ?_
  refine congrArg₂ Ideal.div ?_ ?_
  · exact weights_apply x0 _ _ _ _ _ p q
  · refine (sumColumn_apply _ _ _ _ _ _ p q).trans ?_
    exact Finset.sum_congr rfl fun k _ => weights_apply x0 _ _ _ _ _ p k

/-- The same at any index of the block, its coordinates named. -/
theorem pay_at (x0 : Vec Ideal S32x65536 .f32) (j : S32x65536.Idx) :
    k0_pay1 (F := Ideal) x0 j
      = softmax (Ideal.ofBits .f32 0xFF800000#32) (fun k => x0 (ix2 (⟨(j 0).val, (j 0).isLt⟩ : Fin 32) k))
          (⟨(j 1).val, (j 1).isLt⟩ : Fin 65536) := by
  obtain ⟨p, q, rfl⟩ : ∃ (p : Fin 32) (q : Fin 65536), j = ix2 p q := ⟨j 0, j 1, eq_ix2 j⟩
  exact pay_apply x0 p q

end Cert.KernelIdeal.Block

end
-- ==== Proof.KernelRows.lean ====
/-
  The kernel's result array. The `[16, 64, 256, 256]` argument is recast to 1024 rows of 65536 entries; grid point `t`
  loads rows `32 t … 32 t + 31`, writes back their softmax, and the 32 points' blocks tile the `[1024, 65536]` array, which
  therefore ends holding the softmax of every row; recast to `[16, 64, 256, 256]`, each position holds the softmax of its
  row at its entry.
-/
import proofs.«114431_j74672301408351_1_alg».proof.Proof.Gen.KernelIdeal.Frame
import proofs.«114431_j74672301408351_1_alg».proof.Proof.BlockSoftmax
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Rows

open Cert.KernelIdeal Cert.KernelIdeal.Gen Cert.RowSoftmax Cert.KernelIdeal.Block

variable (m : (ℓ : Loc nD τ sig) → Buf (Elt Ideal) ℓ) (ρ : Dev nD → PrngReg)

/-! ## The rows the region finds -/

/-- The region finds, in its input array, the argument recast to rows. -/
theorem entry_rows (c : Dev nD) :
    (V m c main_v0 : S1024x65536.Idx → EReal)
      = shapeCast S1024x65536 (m ((c : Thread nD τ).loc main_arg0)) shapeCasts_S16x64x256x256_S1024x65536 := by
  show StableHlo.after hostOps0 (fun b => m (c, b)) (Proc.devRef .tc main_v0) = _
  after_results
  rfl

/-- Entry `k` of row `r` of that array is the argument at the row's cell `k`. -/
theorem entry_apply (c : Dev nD) (r : Fin 1024) (k : Fin 65536) :
    (V m c main_v0 : S1024x65536.Idx → EReal) (ix2 r k)
      = (m ((c : Thread nD τ).loc main_arg0) : S16x64x256x256.Idx → EReal) (cell r k) := by
  rw [entry_rows]
  exact shapeCast_apply _ _ (ix2 r k) (cell r k) (by
    rw [Shape.rowMajor_val_four, Shape.rowMajor_val_two]
    show ((r.val / 64 * 64 + r.val % 64) * 256 + k.val / 256) * 256 + k.val % 256 = r.val * 65536 + k.val
    omega)

/-! ## The blocks -/

/-- Both windows' block at grid point `t` is block row `t`, at column block 0. -/
theorem index_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Row `p` of the block of grid point `t` is row `32 t + p` of the array. -/
def blockRow (t : Fin cfg0.N) (p : Fin 32) : Fin 1024 :=
  ⟨t.val * 32 + p.val, by have := t.isLt; have hN : cfg0.N = 32 := N_0; omega⟩

/-- The input block at point `t`, at entry `k` of its row `p`: the argument at cell `k` of row `32 t + p`. -/
theorem iblk_apply (c : Dev nD) (t : Fin cfg0.N) (p : Fin 32) (k : Fin 65536) :
    (iblk m c 0 t : Vec Ideal S32x65536 .f32) (ix2 p k)
      = (m ((c : Thread nD τ).loc main_arg0) : S16x64x256x256.Idx → EReal) (cell (blockRow t p) k) := by
  obtain ⟨e0, e1, -, -⟩ := index_facts t
  unfold iblk
  rw [View.read_apply]
  show V m c main_v0 (((cfg0.win 0).blk t).view.emb (ix2 p k)) = _
  refine Eq.trans (congrArg (V m c main_v0) ?_) (entry_apply m c (blockRow t p) k)
  funext a
  apply Fin.ext
  match a with
  | ⟨0, _⟩ => show win0_0.index t (0 : Fin 2) * 32 + 1 * p.val = t.val * 32 + p.val; rw [e0]; omega
  | ⟨1, _⟩ => show win0_0.index t (1 : Fin 2) * 65536 + 1 * k.val = k.val; rw [e1]; omega

/-- The body loads and stores its whole block: at offset zero on both axes. -/
theorem hz : (![0, 0] : Fin 2 → Nat) = fun _ => 0 := funext fun a => by fin_cases a <;> rfl

/-- What grid point `t` writes back is block `t` of the rows' softmax: the body's result at entry `q` of its row `p` is the
    softmax of the loaded row, which is row `32 t + p` of the argument, the row the block's entry lands in. -/
theorem flushed_eq (c : Dev nD) (t : Fin cfg0.N) :
    (dats m 0 c).flushed 1 t
      = ((cfg0.win 1).blk t).view.read (Elt Ideal) (rows floor (m ((c : Thread nD τ).loc main_arg0))) := by
  show (cfg0.win 1).cut (grid0.coords t) ((dats m 0 c).after 1 t) = _
  rw [after0_1]
  unfold out0_1
  rw [View.canon_unit_zero hz]
  simp only [View.ld_unit_zero (S := S32x65536) hz]
  obtain ⟨-, -, e2, e3⟩ := index_facts t
  funext j
  rw [View.read_apply]
  refine Eq.trans ?_ (cast_eq _ _).symm
  refine (pay_at (iblk m c 0 t) _).trans ?_
  refine Eq.trans ?_ (rows_at _ _ _).symm
  refine softmax_congr _ (fun k => ?_) ?_
  · refine (iblk_apply m c t _ k).trans ?_
    refine congrArg (fun r : Fin 1024 => (m ((c : Thread nD τ).loc main_arg0) : S16x64x256x256.Idx → EReal) (cell r k)) (Fin.ext ?_)
    show t.val * 32 + (j 0).val = win0_1.index t (0 : Fin 2) * 32 + 1 * (j 0).val
    rw [e2]; omega
  · show (j 1).val = win0_1.index t (1 : Fin 2) * 65536 + 1 * (j 1).val
    rw [e3]; omega

/-- An index of the array is in point `t`'s block iff each coordinate is in the block's range on its axis. -/
theorem mem_blk (t : Fin cfg0.N) (i : S1024x65536.Idx) :
    i ∈ ((cfg0.win 1).blk t).view.set ↔ ∀ a : Fin 2, win0_1.index t a * S32x65536.size a ≤ (i a).val
      ∧ (i a).val < win0_1.index t a * S32x65536.size a + S32x65536.size a := by
  show i ∈ ((View.whole main_v1).slice (win0_1.rect t)).set ↔ _
  rw [View.set_slice_whole, Rect.mem_set_unit]
  exact Iff.rfl

/-- The array after the run holds the softmax of every row: row `r` is in the block of point `r / 32`. -/
theorem final_rows (c : Dev nD) :
    (dats m 0 c).arrAt 1 cfg0.N = rows floor (m ((c : Thread nD τ).loc main_arg0)) :=
  (dats m 0 c).arrAt_eq_of_cover 1 _ (fun t _ => flushed_eq m c t) fun i => by
    have h0 : (i 0).val < 1024 := (i 0).isLt
    have h1 : (i 1).val < 65536 := (i 1).isLt
    have hN : cfg0.N = 32 := N_0
    obtain ⟨t, ht⟩ : ∃ t : Fin cfg0.N, t.val = (i 0).val / 32 := ⟨⟨(i 0).val / 32, by omega⟩, rfl⟩
    obtain ⟨-, -, e2, e3⟩ := index_facts t
    refine ⟨t, flush0_1 t, ?_⟩
    rw [mem_blk]
    intro a
    match a with
    | ⟨0, _⟩ =>
      show win0_1.index t (0 : Fin 2) * 32 ≤ (i 0).val ∧ (i 0).val < win0_1.index t (0 : Fin 2) * 32 + 32
      rw [e2, ht]; omega
    | ⟨1, _⟩ =>
      show win0_1.index t (1 : Fin 2) * 65536 ≤ (i 1).val ∧ (i 1).val < win0_1.index t (1 : Fin 2) * 65536 + 65536
      rw [e3]; omega

/-! ## The result -/

/-- The lines after the region recast the region's output array to `[16, 64, 256, 256]`. -/
theorem tail_fun (c : Dev nD) :
    Pipeline.afterTail₀ cfgs (dats m) 0 (V0 m) [hostOps1] c main_v2
      = shapeCast _ (Pipeline.withArrays (cfgs 0).spec c (V0 m c) (fun w => (dats m 0 c).arrAt w (cfgs 0).N)
          (Proc.devRef .tc main_v1)) shapeCasts_S1024x65536_S16x64x256x256 := by
  unfold Pipeline.afterTail₀
  show StableHlo.after hostOps1 _ (Proc.devRef .tc main_v2) = _
  after_results
  rfl

/-- The program's result: position `(b, c, h, w)` is entry `256 h + w` of row `64 b + c` in row-major order, so it holds the
    softmax of that row at that entry. -/
theorem tail_eq (c : Dev nD) :
    (Pipeline.afterTail₀ cfgs (dats m) 0 (V0 m) [hostOps1] c main_v2 : S16x64x256x256.Idx → EReal)
      = result floor (m ((c : Thread nD τ).loc main_arg0)) := by
  rw [tail_fun]
  funext i
  have h0 : (i 0).val < 16 := (i 0).isLt
  have h1 : (i 1).val < 64 := (i 1).isLt
  have h2 : (i 2).val < 256 := (i 2).isLt
  have h3 : (i 3).val < 256 := (i 3).isLt
  refine (shapeCast_apply _ shapeCasts_S1024x65536_S16x64x256x256 i (ix2 (rowOf i) (colOf i)) ?_).trans ?_
  · rw [Shape.rowMajor_val_two, Shape.rowMajor_val_four]
    show ((i 0).val * 64 + (i 1).val) * 65536 + ((i 2).val * 256 + (i 3).val)
      = (((i 0).val * 64 + (i 1).val) * 256 + (i 2).val) * 256 + (i 3).val
    omega
  · refine (congrFun (Pipeline.withArrays_arr spec0 launch0.win.arr_inj c (V0 m c)
      (fun w => (dats m 0 c).arrAt w cfg0.N) 1) _).trans ?_
    refine (congrFun (final_rows m c) _).trans ?_
    exact (rows_apply _ _ _ _).trans (result_at _ _ _).symm

/-! ## The run, read -/

/-- Every weakly fair execution of the program terminates, its result array the softmax of the argument's rows and the
    argument unchanged. -/
theorem run : θ_run defs (onTc (τ := τ) (main (F := Ideal))) ⟨m, fun _ => 0, ρ⟩ fun r => ∀ c : Dev nD,
      r.2.mem ((c.tc : Thread nD τ).loc main_v2) = result floor (m ((c.tc : Thread nD τ).loc main_arg0))
      ∧ r.2.mem ((c.tc : Thread nD τ).loc main_arg0) = m ((c.tc : Thread nD τ).loc main_arg0) :=
  (θ_run defs _ _).mono (fun r h c =>
      ⟨((h c).2 main_v2 (Pipeline.mem_restRefs_of main_v2 (by decide) (by decide))).trans (tail_eq m c),
       ((h c).2 main_arg0 (Pipeline.mem_restRefs_of main_arg0 (by decide) (by decide))).trans (W_main_arg0 m (dats m) c)⟩)
    (run_main m ρ)

end Cert.KernelIdeal.Rows

end
-- ==== Proof.ReferenceRows.lean ====
/-
  The reference's result array. The reference recasts the argument to `[16, 64, 65536]`, takes each channel's maximum
  from the floor, takes the maximum of that and the floor once more, subtracts, exponentiates, sums each channel's
  weights from zero, divides, and recasts to `[16, 64, 256, 256]`. Channel `(b, c)` is row `64 b + c` of the argument read
  as rows; the second maximum against the floor changes nothing and neither does the zero the sum starts from: at every
  position the result is the softmax of the position's row at its entry.
-/
import proofs.«114431_j74672301408351_1_alg».proof.Proof.Gen.ReferenceIdeal.Read
import proofs.«114431_j74672301408351_1_alg».proof.Proof.RowSoftmax
import Idealize.ShloMosaic.PureOps.Ideal.Laws
import Idealize.ShloMosaic.Lib.ValueIdx

noncomputable section

open scoped BigOperators

namespace Cert.ReferenceIdeal.Rows

open Cert.ReferenceIdeal Cert.ReferenceIdeal.Gen Cert.ReferenceIdeal.Read Cert.RowSoftmax
open Idealize.ShloMosaic Idealize.ShloMosaic.ValueIdx

variable (x0 : (⟨S16x64x256x256, .f32⟩ : BufTy).Contents (Elt Ideal))

/-- Channel `(b, c)` as a row of the argument. -/
def chanRow (j : S16x64.Idx) : Fin 1024 :=
  ⟨(j 0).val * 64 + (j 1).val, by
    have h0 : (j 0).val < 16 := (j 0).isLt
    have h1 : (j 1).val < 64 := (j 1).isLt
    omega⟩

/-- The channel's entries, as a row of extended reals. -/
abbrev chan (j : S16x64.Idx) : Fin 65536 → EReal := fun k => x0 (cell (chanRow j) k)

/-- The index the reductions over the last axis read for channel `j` at entry `k`. -/
theorem lift_chan (h : S16x64x65536.Reduces [2] S16x64) (j : S16x64.Idx) (k : Fin 65536) :
    h.lift j k = idx_main_v8 j k :=
  funext fun a => Fin.ext (by match a with | ⟨0, _⟩ => rfl | ⟨1, _⟩ => rfl | ⟨2, _⟩ => rfl)

/-- The recast argument at entry `k` of channel `j` is the channel's entry. -/
theorem v0_apply (j : S16x64.Idx) (k : Fin 65536) : val_main_v0 (F := Ideal) x0 (idx_main_v8 j k) = chan x0 j k := by
  have h0 : (j 0).val < 16 := (j 0).isLt
  have h1 : (j 1).val < 64 := (j 1).isLt
  have hk : k.val < 65536 := k.isLt
  rw [val_main_v0_apply]
  refine congrArg x0 ?_
  funext a
  apply Fin.ext
  match a with
  | ⟨0, _⟩ => show (((j 0).val * 64 + (j 1).val) * 65536 + k.val) / 4194304 = ((j 0).val * 64 + (j 1).val) / 64; omega
  | ⟨1, _⟩ => show (((j 0).val * 64 + (j 1).val) * 65536 + k.val) / 65536 % 64 = ((j 0).val * 64 + (j 1).val) % 64; omega
  | ⟨2, _⟩ => show (((j 0).val * 64 + (j 1).val) * 65536 + k.val) / 256 % 256 = k.val / 256; omega
  | ⟨3, _⟩ => show (((j 0).val * 64 + (j 1).val) * 65536 + k.val) % 256 = k.val % 256; omega

/-- The channel's maximum from the floor. -/
theorem v1_apply (j : S16x64.Idx) : val_main_v1 (F := Ideal) x0 j = rowMax floor (chan x0 j) := by
  have h : S16x64x65536.Reduces [2] S16x64 := by decide
  unfold val_main_v1
  refine (Host.reduce_eq_fold_single (FloatOps.maximumf (F := Ideal) (φ := .f32)) (val_main_v0 (F := Ideal) x0)
    (val_main_cst (F := Ideal)) reducesTo_S16x64x65536_S16x64_d2 h h_S_ j).trans ?_
  refine (fold_maximumf _ _).trans ?_
  refine congrArg₂ (fun (b : EReal) (g : Fin 65536 → EReal) => rowMax b g) (val_main_cst_apply _) ?_
  funext k
  exact (congrArg (val_main_v0 (F := Ideal) x0) (lift_chan h j k)).trans (v0_apply x0 j k)

/-- The weights: at entry `k` of channel `j`, the exponential of the entry's distance below the channel's maximum. -/
theorem v7_apply (j : S16x64.Idx) (k : Fin 65536) :
    val_main_v7 (F := Ideal) x0 (idx_main_v8 j k) = weight floor (chan x0 j) k := by
  have hidx : idx_main_v4 (idx_main_v5 (idx_main_v8 j k)) = j :=
    funext fun a => Fin.ext (by match a with | ⟨0, _⟩ => rfl | ⟨1, _⟩ => rfl)
  rw [val_main_v7_apply, val_main_v6_apply, val_main_v5_apply, val_main_v4_apply, hidx, val_main_v3_apply,
    val_main_v2_apply, val_main_cst_0_apply, v0_apply, v1_apply]
  show Ideal.exp (chan x0 j k - max floor (rowMax floor (chan x0 j))) = _
  rw [max_floor_rowMax]
  rfl

/-- The channel's sum of weights. -/
theorem v8_apply (j : S16x64.Idx) : val_main_v8 (F := Ideal) x0 j = ∑ k : Fin 65536, weight floor (chan x0 j) k := by
  rw [val_main_v8_apply, val_main_cst_1_apply]
  show Ideal.ofBits .f32 0x00000000#32 + _ = _
  rw [Ideal.ofBits_zero_f32, zero_add]
  exact Finset.sum_congr rfl fun k _ => v7_apply x0 j k

/-- The channel a position lies in. -/
def chanOf (i : S16x64x256x256.Idx) : S16x64.Idx := fun a => match a with
  | ⟨0, _⟩ => ⟨(i 0).val, (i 0).isLt⟩
  | ⟨1, _⟩ => ⟨(i 1).val, (i 1).isLt⟩

/-- The reference's result: at every position the softmax of the position's row at its entry. -/
theorem result_eq : val_main_v12 (F := Ideal) x0 = result floor x0 := by
  funext i
  have h0 : (i 0).val < 16 := (i 0).isLt
  have h1 : (i 1).val < 64 := (i 1).isLt
  have h2 : (i 2).val < 256 := (i 2).isLt
  have h3 : (i 3).val < 256 := (i 3).isLt
  have hidx : idx_main_v12 i = idx_main_v8 (chanOf i) (colOf i) := by
    funext a
    apply Fin.ext
    match a with
    | ⟨0, _⟩ => show ((((i 0).val * 64 + (i 1).val) * 256 + (i 2).val) * 256 + (i 3).val) / 4194304 = (i 0).val; omega
    | ⟨1, _⟩ => show ((((i 0).val * 64 + (i 1).val) * 256 + (i 2).val) * 256 + (i 3).val) / 65536 % 64 = (i 1).val; omega
    | ⟨2, _⟩ => show ((((i 0).val * 64 + (i 1).val) * 256 + (i 2).val) * 256 + (i 3).val) % 65536 = (i 2).val * 256 + (i 3).val; omega
  have hidx' : idx_main_v9 (idx_main_v10 (idx_main_v8 (chanOf i) (colOf i))) = chanOf i :=
    funext fun a => Fin.ext (by match a with | ⟨0, _⟩ => rfl | ⟨1, _⟩ => rfl)
  rw [val_main_v12_apply, val_main_v11_apply, val_main_v10_apply, val_main_v9_apply, hidx, hidx', v7_apply, v8_apply]
  exact (result_at _ _ _).symm

end Cert.ReferenceIdeal.Rows

end
-- ==== Proof.lean ====
/-
  A softmax over the 65536 pixels of each of the 1024 channels of a `[16, 64, 256, 256]` array, against jax's softmax over
  the same axis, equal on the extended reals.

  The kernel reads the array as 1024 rows of 65536 entries and, 32 rows at a time, writes back each row's softmax:
  the row's entries less the row's maximum, exponentiated, over the sum of those exponentials (Proof/BlockSoftmax.lean:
  one block; Proof/KernelRows.lean: the blocks tile the array, and the result recast to four axes). The reference
  computes the same quotient channel by channel, taking the maximum once more against the floor it was folded from and
  starting the sum from zero, neither of which changes a value (Proof/ReferenceRows.lean). Both result arrays are the
  one function of the argument stated in Proof/RowSoftmax.lean, so they are equal entry by entry; no entry needs to be
  finite for that, and the precondition is not used.

  The three frames: the two kernel programs' are the generated frame certificates; the reference has no kernel, and its
  frame is its run with the result dropped. The kernel's idealization rewrote nothing, so there is nothing to preserve.
-/
import proofs.«114431_j74672301408351_1_alg».proof.Defs
import proofs.«114431_j74672301408351_1_alg».proof.Proof.Gen.Kernel
import proofs.«114431_j74672301408351_1_alg».proof.Proof.Gen.Kernel.Skeleton
import proofs.«114431_j74672301408351_1_alg».proof.Proof.Gen.Kernel.Launch
import proofs.«114431_j74672301408351_1_alg».proof.Proof.Gen.Kernel.Points
import proofs.«114431_j74672301408351_1_alg».proof.Proof.Gen.Kernel.Frame
import proofs.«114431_j74672301408351_1_alg».proof.Proof.Gen.KernelIdeal
import proofs.«114431_j74672301408351_1_alg».proof.Proof.Gen.KernelIdeal.Skeleton
import proofs.«114431_j74672301408351_1_alg».proof.Proof.Gen.KernelIdeal.Launch
import proofs.«114431_j74672301408351_1_alg».proof.Proof.Gen.KernelIdeal.Points
import proofs.«114431_j74672301408351_1_alg».proof.Proof.Gen.KernelIdeal.Frame
import proofs.«114431_j74672301408351_1_alg».proof.Proof.Gen.ReferenceIdeal
import proofs.«114431_j74672301408351_1_alg».proof.Proof.Gen.Pre_finite_inputs
import proofs.«114431_j74672301408351_1_alg».proof.Proof.Gen.ReferenceIdeal.Run
import proofs.«114431_j74672301408351_1_alg».proof.Proof.Gen.ReferenceIdeal.Read
import proofs.«114431_j74672301408351_1_alg».proof.Proof.KernelRows
import proofs.«114431_j74672301408351_1_alg».proof.Proof.ReferenceRows
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs, run from memories that agree on the argument, end with their result arrays at the softmax of the
    argument's rows. -/
theorem algebraic : Cert.algebraic_KernelIdeal_ReferenceIdeal := by
  intro m ρ m' ρ' _ hagree
  refine ⟨fun c => Cert.RowSoftmax.result Cert.RowSoftmax.floor
    (m ((c.tc : Thread Cert.KernelIdeal.nD Cert.KernelIdeal.τ).loc Cert.KernelIdeal.main_arg0)),
    Cert.KernelIdeal.Rows.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.Rows.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
